-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x960 : S_.BroadcastsInDim S65536x960 (![] : Fin 0 → Fin S65536x960.rank)
  reducesTo_S65536x960_S_d0_1 : S65536x960.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x1024 .f32) (main_arg5 : FVec F S64 .f32) (main_arg6 : FVec F S64x1024 .f32) (main_arg7 : FVec F S64 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_v33

def fn {F : FTy → Type} [FloatOps F] (main_arg0 : FVec F S65536x64 .f32) (main_arg1 : FVec F S65536x960 .f32) (main_arg2 : FVec F S1024x1024 .f32) (main_arg3 : FVec F S1024 .f32) (main_arg4 : FVec F S64x1024 .f32) (main_arg5 : FVec F S64 .f32) (main_arg6 : FVec F S64x1024 .f32) (main_arg7 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x960 .f32 := Host.absf main_arg1
  let main_cst_0 : FVec F S_ .f32 := constant S_ .f32 0x7F800000#32
  let main_v5 : FVec F S65536x960 .f32 := broadcastInDim S65536x960 ![] bcast_S_S65536x960 main_cst_0
  let main_v6 : IVec S65536x960 1 := cmpf .olt main_v4 main_v5
  let main_c_1 : IVec S_ 1 := constantI S_ 1 1#1
  let main_v7 : IVec S_ 1 := (fun x v => Host.reduce IntOp.andi x v reducesTo_S65536x960_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S1024x1 : Shape := ⟨2, ![1024, 1]⟩
abbrev S1x1023 : Shape := ⟨2, ![1, 1023]⟩
abbrev S1023 : Shape := ⟨1, ![1023]⟩
abbrev S2047 : Shape := ⟨1, ![2047]⟩
abbrev S1x1024 : Shape := ⟨2, ![1, 1024]⟩
abbrev S_ : Shape := ⟨0, ![]⟩
abbrev S1024x1024x1 : Shape := ⟨3, ![1024, 1024, 1]⟩
abbrev S1024x64 : Shape := ⟨2, ![1024, 64]⟩
abbrev S1024x960 : Shape := ⟨2, ![1024, 960]⟩
abbrev S960x1024 : Shape := ⟨2, ![960, 1024]⟩
abbrev S1024x128 : Shape := ⟨2, ![1024, 128]⟩
abbrev S128 : Shape := ⟨1, ![128]⟩
abbrev S1x128 : Shape := ⟨2, ![1, 128]⟩

abbrev nBuf : Space → Nat
  | .hbm => 48
  | .vmem => 12
  | .smem => 0
  | _ => 0

abbrev bufTy : (tb : Table) → Fin (tcTables nBuf tb) → BufTy
  | .hbm, ⟨0, _⟩ => ⟨S65536x64, .f32⟩
  | .hbm, ⟨1, _⟩ => ⟨S65536x960, .f32⟩
  | .hbm, ⟨2, _⟩ => ⟨S1024x1024, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1x1023, .f32⟩
  | .hbm, ⟨12, _⟩ => ⟨S1023, .f32⟩
  | .hbm, ⟨13, _⟩ => ⟨S2047, .f32⟩
  | .hbm, ⟨14, _⟩ => ⟨S1024, .i32⟩
  | .hbm, ⟨15, _⟩ => ⟨S1024x1, .i32⟩
  | .hbm, ⟨16, _⟩ => ⟨S1024, .i32⟩
  | .hbm, ⟨17, _⟩ => ⟨S1x1024, .i32⟩
  | .hbm, ⟨18, _⟩ => ⟨S_, .i32⟩
  | .hbm, ⟨19, _⟩ => ⟨S1024x1, .i32⟩
  | .hbm, ⟨20, _⟩ => ⟨S1024x1, .i32⟩
  | .hbm, ⟨21, _⟩ => ⟨S1024x1024, .i32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i1⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024x1, .i32⟩
  | .hbm, ⟨32, _⟩ => ⟨S1024x1024, .f32⟩
  | .hbm, ⟨33, _⟩ => ⟨S1024x64, .f32⟩
  | .hbm, ⟨34, _⟩ => ⟨S64x1024, .f32⟩
  | .hbm, ⟨35, _⟩ => ⟨S1024x960, .f32⟩
  | .hbm, ⟨36, _⟩ => ⟨S960x1024, .f32⟩
  | .hbm, ⟨37, _⟩ => ⟨S1024x1024, .f32⟩
  | .hbm, ⟨38, _⟩ => ⟨S1024x1024, .bf16⟩
  | .hbm, ⟨39, _⟩ => ⟨S1024x64, .f32⟩
  | .hbm, ⟨40, _⟩ => ⟨S1024x64, .f32⟩
  | .hbm, ⟨41, _⟩ => ⟨S1024x128, .f32⟩
  | .hbm, ⟨42, _⟩ => ⟨S1024x128, .bf16⟩
  | .hbm, ⟨43, _⟩ => ⟨S1x1024, .f32⟩
  | .hbm, ⟨44, _⟩ => ⟨S128, .f32⟩
  | .hbm, ⟨45, _⟩ => ⟨S1x128, .f32⟩
  | .hbm, ⟨46, _⟩ => ⟨S65536x64, .f32⟩
  | .hbm, ⟨47, _⟩ => ⟨S65536x64, .f32⟩
  | .local _ .vmem, ⟨0, _⟩ => ⟨S1024x64, .f32⟩
  | .local _ .vmem, ⟨1, _⟩ => ⟨S1024x64, .f32⟩
  | .local _ .vmem, ⟨2, _⟩ => ⟨S1024x960, .f32⟩
  | .local _ .vmem, ⟨3, _⟩ => ⟨S1024x960, .f32⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1x128, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x1024_S1024x1_0_0 : S1024x1024.Slices ![0, 0] S1024x1
  shapeCasts_S1024x1_S1024 : S1024x1.ShapeCasts S1024
  slices_S1024x1024_S1x1023_0_1 : S1024x1024.Slices ![0, 1] S1x1023
  shapeCasts_S1x1023_S1023 : S1x1023.ShapeCasts S1023
  concatenates_S1024_S1023_S2047_d0 : Shape.Concatenates [S1024, S1023] S2047 0
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  slices_S1024x1024_S1024x64_0_0 : S1024x1024.Slices ![0, 0] S1024x64
  transposes_S1024x64_S64x1024_1_0 : S1024x64.Transposes [1, 0] S64x1024
  slices_S1024x1024_S1024x960_0_64 : S1024x1024.Slices ![0, 64] S1024x960
  transposes_S1024x960_S960x1024_1_0 : S1024x960.Transposes [1, 0] S960x1024
  concatenates_S64x1024_S960x1024_S1024x1024_d0 : Shape.Concatenates [S64x1024, S960x1024] S1024x1024 0
  bitsLt_bf16_f32 : FTy.bits .bf16 < FTy.bits .f32
  transposes_S64x1024_S1024x64_1_0 : S64x1024.Transposes [1, 0] S1024x64
  concatenates_S1024x64_S1024x64_S1024x128_d1 : Shape.Concatenates [S1024x64, S1024x64] S1024x128 1
  shapeCasts_S1024_S1x1024 : S1024.ShapeCasts S1x1024
  concatenates_S64_S64_S128_d0 : Shape.Concatenates [S64, S64] S128 0
  shapeCasts_S128_S1x128 : S128.ShapeCasts S1x128
  inb_S1024x64_S1024x64_0_0 : ∀ a, (![0, 0] : Fin 2 → Nat) a + S1024x64.size a ≤ S1024x64.size a
  h_S1024x64 : 0 < S1024x64.numel
  inb_S1024x960_S1024x960_0_0 : ∀ a, (![0, 0] : Fin 2 → Nat) a + S1024x960.size a ≤ S1024x960.size a
  h_S1024x960 : 0 < S1024x960.numel
  concatenates_S1024x64_S1024x960_S1024x1024_d1 : Shape.Concatenates [S1024x64, S1024x960] S1024x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  gather_S2047_S1024x1024x1_S1024x1024_n_0_n_n_0_2_1_wf : GatherDims.WF S2047 S1024x1024x1 S1024x1024 [] [0] [] [0] [] 2 ![1]
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x960.size a ≤ S65536x960.size a
  hwx0_1 : ∀ i : grid0.Coords, EltTy.bits .f32 = 32 ∨ (Rect.block (s := S65536x960) S1024x960.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S65536x64.size a
  hwx0_6 : ∀ i : grid0.Coords, EltTy.bits .f32 = 32 ∨ (Rect.block (s := S65536x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S65536x64.size a
  hwx0_7 : ∀ i : grid0.Coords, EltTy.bits .f32 = 32 ∨ (Rect.block (s := S65536x64) S1024x64.size (cc0_transform_7 i) (hinb0_7 i)).WholeWords (EltTy.packing .f32)

variable [Facts₀]

def gather_S2047_S1024x1024x1_S1024x1024_n_0_n_n_0_2_1 : GatherDims S2047 S1024x1024x1 S1024x1024 where
  offsetDims := []
  collapsedSliceDims := [0]
  operandBatchingDims := []
  startIndicesBatchingDims := []
  startIndexMap := [0]
  indexVectorDim := 2
  sliceSizes := ![1]
  wf := gather_S2047_S1024x1024x1_S1024x1024_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35_0) S1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v35_1) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x960 : Shape := ⟨2, ![65536, 960]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S1024x1 : Shape := ⟨2, ![1024, 1]⟩
abbrev S1x1023 : Shape := ⟨2, ![1, 1023]⟩
abbrev S1023 : Shape := ⟨1, ![1023]⟩
abbrev S2047 : Shape := ⟨1, ![2047]⟩
abbrev S_ : Shape := ⟨0, ![]⟩
abbrev S1x1024 : Shape := ⟨2, ![1, 1024]⟩
abbrev S1024x1024x1 : Shape := ⟨3, ![1024, 1024, 1]⟩
abbrev S65536x1024 : Shape := ⟨2, ![65536, 1024]⟩
abbrev S1024x64 : Shape := ⟨2, ![1024, 64]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x960, .f32⟩
  | .hbm, ⟨2, _⟩ => ⟨S1024x1024, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1x1023, .f32⟩
  | .hbm, ⟨12, _⟩ => ⟨S1023, .f32⟩
  | .hbm, ⟨13, _⟩ => ⟨S2047, .f32⟩
  | .hbm, ⟨14, _⟩ => ⟨S1024, .i32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S1024, .i32⟩
  | .hbm, ⟨20, _⟩ => ⟨S1x1024, .i32⟩
  | .hbm, ⟨21, _⟩ => ⟨S1024x1024, .i32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i1⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024x1, .i32⟩
  | .hbm, ⟨32, _⟩ => ⟨S1024x1024, .f32⟩
  | .hbm, ⟨33, _⟩ => ⟨S65536x1024, .f32⟩
  | .hbm, ⟨34, _⟩ => ⟨S1024x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S1024x64, .f32⟩
  | .hbm, ⟨43, _⟩ => ⟨S65536x64, .f32⟩
  | .hbm, ⟨44, _⟩ => ⟨S1x64, .f32⟩
  | .hbm, ⟨45, _⟩ => ⟨S65536x64, .f32⟩
  | .hbm, ⟨46, _⟩ => ⟨S65536x64, .f32⟩
  | .hbm, ⟨47, _⟩ => ⟨S65536x64, .f32⟩
  | .hbm, ⟨48, _⟩ => ⟨S1024x64, .f32⟩
  | .hbm, ⟨49, _⟩ => ⟨S65536x64, .f32⟩
  | .hbm, ⟨50, _⟩ => ⟨S1x64, .f32⟩
  | .hbm, ⟨51, _⟩ => ⟨S65536x64, .f32⟩
  | .hbm, ⟨52, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  slices_S1024x1024_S1024x1_0_0 : S1024x1024.Slices ![0, 0] S1024x1
  shapeCasts_S1024x1_S1024 : S1024x1.ShapeCasts S1024
  slices_S1024x1024_S1x1023_0_1 : S1024x1024.Slices ![0, 1] S1x1023
  shapeCasts_S1x1023_S1023 : S1x1023.ShapeCasts S1023
  concatenates_S1024_S1023_S2047_d0 : Shape.Concatenates [S1024, S1023] S2047 0
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  concatenates_S65536x64_S65536x960_S65536x1024_d1 : Shape.Concatenates [S65536x64, S65536x960] S65536x1024 1
  transposes_S1024x1024_S1024x1024_1_0 : S1024x1024.Transposes [1, 0] S1024x1024
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S64x1024_S1024x64_1_0 : S64x1024.Transposes [1, 0] S1024x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  gather_S2047_S1024x1024x1_S1024x1024_n_0_n_n_0_2_1_wf : GatherDims.WF S2047 S1024x1024x1 S1024x1024 [] [0] [] [0] [] 2 ![1]
  dot_S65536x1024_S1024x1024_S65536x1024_1_0_0_1_n_n_wf : DotDims.WF S65536x1024 S1024x1024 S65536x1024 [1] [0] [0] [1] [] []
  dot_S65536x1024_S1024x64_S65536x64_1_0_0_1_n_n_wf : DotDims.WF S65536x1024 S1024x64 S65536x64 [1] [0] [0] [1] [] []

variable [Facts₀]

def gather_S2047_S1024x1024x1_S1024x1024_n_0_n_n_0_2_1 : GatherDims S2047 S1024x1024x1 S1024x1024 where
  offsetDims := []
  collapsedSliceDims := [0]
  operandBatchingDims := []
  startIndicesBatchingDims := []
  startIndexMap := [0]
  indexVectorDim := 2
  sliceSizes := ![1]
  wf := gather_S2047_S1024x1024x1_S1024x1024_n_0_n_n_0_2_1_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf

class Facts : Prop extends Facts₀ where

variable [Facts]
-- ==== Proof.Spec.lean ====
/-
  A perceptron with one rectified hidden layer and two linear heads, as ONE function of its argument arrays, index by
  index, on the extended reals.

  A row of the input is a frame row of 64 numbers followed by a state row of 960 (`joinCols`). Hidden unit `n` of a row
  `u` is `max (∑ₖ u k · A k n + b n) 0` (`hiddenAt`), and an output of a head with weights `B` and bias `β` over a hidden
  row `q` is `∑ₙ q n · B n + β` (`headAt`). The first head's outputs go through `tanh` (`slope`); the second head's
  are left as they are (`intercept`).

  The first layer's matrix `T` is a parameter here: whatever 1024 × 1024 matrix it is, the layer reads its entry
  `(n, k)` as the weight from input `k` to hidden unit `n`. Both sums range over all of `Fin 1024`, so nothing here depends
  on the order or grouping of the additions: addition of extended reals is commutative and associative, and no law that
  fails at an infinity (distributing, cancelling) is used anywhere.
-/
import Idealize.ShloMosaic.PureOps.Ideal
import Idealize.ShloMosaic.Lib.ValueIdx

noncomputable section

namespace Cert.ToepMlp

open Idealize.ShloMosaic Idealize.ShloMosaic.ValueIdx

/-- The number the rectifier compares against: the float word of `0.0`, the same word wherever it is written. -/
abbrev zeroWord : EReal := Ideal.ofBits .f32 0x00000000#32

/-- Entry `k` of a frame row `a` (64 numbers) followed by a state row `b` (960 numbers). -/
def joinCols (a : Fin 64 → EReal) (b : Fin 960 → EReal) (k : Fin 1024) : EReal :=
  if hk : k.val < 64 then a ⟨k.val, hk⟩ else b ⟨k.val - 64, by have := k.isLt; omega⟩

/-- Hidden unit `n` of the input row `u`: the affine form `∑ₖ u k · A k n + b n`, rectified. -/
def hiddenAt (u : Fin 1024 → EReal) (A : Fin 1024 → Fin 1024 → EReal) (b : Fin 1024 → EReal) (n : Fin 1024) : EReal :=
  max ((∑ k : Fin 1024, u k * A k n) + b n) zeroWord

/-- One output of a linear head over the hidden row `q`: `∑ₙ q n · B n + β`. -/
def headAt (q : Fin 1024 → EReal) (B : Fin 1024 → EReal) (β : EReal) : EReal :=
  (∑ n : Fin 1024, q n * B n) + β

/-- The head `(W, β)` before any squashing, at sample `r` and output `f`: the hidden row of sample `r` — frame row and state
    row joined, through the layer whose weight from input `k` to unit `n` is `T (n, k)` — against row `f` of `W`. -/
def preactAt (x : (⟨2, ![65536, 64]⟩ : Shape).Idx → EReal) (h : (⟨2, ![65536, 960]⟩ : Shape).Idx → EReal)
    (T : (⟨2, ![1024, 1024]⟩ : Shape).Idx → EReal) (b1 : (⟨1, ![1024]⟩ : Shape).Idx → EReal)
    (W : (⟨2, ![64, 1024]⟩ : Shape).Idx → EReal) (β : (⟨1, ![64]⟩ : Shape).Idx → EReal)
    (r : Fin 65536) (f : Fin 64) : EReal :=
  headAt (hiddenAt (joinCols (fun k => x (ix2 r k)) (fun k => h (ix2 r k))) (fun k n => T (ix2 n k)) (fun n => b1 (ix1 n)))
    (fun n => W (ix2 f n)) (β (ix1 f))

/-- The squashed head: `tanh` of the pre-activation, at every sample and output. -/
def slope (x : (⟨2, ![65536, 64]⟩ : Shape).Idx → EReal) (h : (⟨2, ![65536, 960]⟩ : Shape).Idx → EReal)
    (T : (⟨2, ![1024, 1024]⟩ : Shape).Idx → EReal) (b1 : (⟨1, ![1024]⟩ : Shape).Idx → EReal)
    (W : (⟨2, ![64, 1024]⟩ : Shape).Idx → EReal) (β : (⟨1, ![64]⟩ : Shape).Idx → EReal) :
    (⟨2, ![65536, 64]⟩ : Shape).Idx → EReal :=
  fun i => Ideal.tanh (preactAt x h T b1 W β (i 0) (i 1))

/-- The plain head: the pre-activation itself, at every sample and output. -/
def intercept (x : (⟨2, ![65536, 64]⟩ : Shape).Idx → EReal) (h : (⟨2, ![65536, 960]⟩ : Shape).Idx → EReal)
    (T : (⟨2, ![1024, 1024]⟩ : Shape).Idx → EReal) (b1 : (⟨1, ![1024]⟩ : Shape).Idx → EReal)
    (W : (⟨2, ![64, 1024]⟩ : Shape).Idx → EReal) (β : (⟨1, ![64]⟩ : Shape).Idx → EReal) :
    (⟨2, ![65536, 64]⟩ : Shape).Idx → EReal :=
  fun i => preactAt x h T b1 W β (i 0) (i 1)

end Cert.ToepMlp

end
-- ==== Proof.Preact.lean ====
/-
  What the kernel's body computes from one block of 1024 samples, read at an index.

  The body joins the frame block and the state block along the columns, multiplies by the (already transposed) layer
  matrix it is handed, adds the bias row to every sample, rectifies, multiplies by the two heads' weights laid side by side
  (128 columns), and adds the two heads' biases laid side by side. On the extended reals a change of float format is the
  identity and a matrix product into a zero accumulator is the plain sum over the contracted axis, so at sample `p` of
  the block and column `j` of the 128 the result is the specification's `headAt` of the sample's `hiddenAt` row.

  The two matrix products are read first (`hidden_matmul_apply`, `heads_matmul_apply`: re-indexing the sum over the
  contraction's index type by its one coordinate), the joining of the two blocks next (`joined_block_apply`), and the
  whole body last (`preact_block`), stated over arbitrary vectors of the loads' shapes.
-/
import proofs.«107216_j48576080117816_2_alg».proof.Proof.Gen.KernelIdeal.Skeleton
import proofs.«107216_j48576080117816_2_alg».proof.Proof.Gen.KernelIdeal
import proofs.«107216_j48576080117816_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Preact

open Cert.KernelIdeal Cert.KernelIdeal.Gen Idealize.ShloMosaic Idealize.ShloMosaic.ValueIdx Cert.ToepMlp

/-- The first product's dimensions: samples × inputs times inputs × hidden units. -/
abbrev dHidden : DotDims S1024x1024 S1024x1024 S1024x1024 := dot_S1024x1024_S1024x1024_S1024x1024_1_0_0_1_n_n
/-- The second product's dimensions: samples × hidden units times hidden units × the two heads' 128 outputs. -/
abbrev dHeads : DotDims S1024x1024 S1024x128 S1024x128 := dot_S1024x1024_S1024x128_S1024x128_1_0_0_1_n_n

/-! ## The operand indices of the two products -/

theorem hidden_lhs0 (i : S1024x1024.Idx) (q : dHidden.contr.Idx) : (dHidden.lhsIdx i q 0).val = (i 0).val := by
  unfold DotDims.lhsIdx
  rw [dif_neg (show ¬(0 : Fin S1024x1024.rank) ∈ dHidden.lhsBatch by decide),
    dif_pos (show (0 : Fin S1024x1024.rank) ∈ dHidden.lhsNonContracting by decide)]
  rfl
theorem hidden_lhs1 (i : S1024x1024.Idx) (q : dHidden.contr.Idx) : (dHidden.lhsIdx i q 1).val = (q ⟨0, by decide⟩).val :=
  dHidden.lhsIdx_val_of_single rfl i q
theorem hidden_rhs0 (i : S1024x1024.Idx) (q : dHidden.contr.Idx) : (dHidden.rhsIdx i q 0).val = (q ⟨0, by decide⟩).val :=
  dHidden.rhsIdx_val_of_single rfl i q
theorem hidden_rhs1 (i : S1024x1024.Idx) (q : dHidden.contr.Idx) : (dHidden.rhsIdx i q 1).val = (i 1).val := by
  unfold DotDims.rhsIdx
  rw [dif_neg (show ¬(1 : Fin S1024x1024.rank) ∈ dHidden.rhsBatch by decide),
    dif_pos (show (1 : Fin S1024x1024.rank) ∈ dHidden.rhsNonContracting by decide)]
  rfl

theorem heads_lhs0 (i : S1024x128.Idx) (q : dHeads.contr.Idx) : (dHeads.lhsIdx i q 0).val = (i 0).val := by
  unfold DotDims.lhsIdx
  rw [dif_neg (show ¬(0 : Fin S1024x1024.rank) ∈ dHeads.lhsBatch by decide),
    dif_pos (show (0 : Fin S1024x1024.rank) ∈ dHeads.lhsNonContracting by decide)]
  rfl
theorem heads_lhs1 (i : S1024x128.Idx) (q : dHeads.contr.Idx) : (dHeads.lhsIdx i q 1).val = (q ⟨0, by decide⟩).val :=
  dHeads.lhsIdx_val_of_single rfl i q
theorem heads_rhs0 (i : S1024x128.Idx) (q : dHeads.contr.Idx) : (dHeads.rhsIdx i q 0).val = (q ⟨0, by decide⟩).val :=
  dHeads.rhsIdx_val_of_single rfl i q
theorem heads_rhs1 (i : S1024x128.Idx) (q : dHeads.contr.Idx) : (dHeads.rhsIdx i q 1).val = (i 1).val := by
  unfold DotDims.rhsIdx
  rw [dif_neg (show ¬(1 : Fin S1024x128.rank) ∈ dHeads.rhsBatch by decide),
    dif_pos (show (1 : Fin S1024x128.rank) ∈ dHeads.rhsNonContracting by decide)]
  rfl

/-! ## The two products as plain sums -/

/-- The first product into a zero accumulator, at sample `p` and hidden unit `n`: `∑ₖ lhs (p, k) · rhs (k, n)`. -/
theorem hidden_matmul_apply (lhs : FVec Ideal S1024x1024 .bf16) (rhs : FVec Ideal S1024x1024 .bf16) (p n : Fin 1024) :
    matmul dHidden none lhs rhs (constant S1024x1024 .f32 0x00000000#32) (ix2 p n)
      = ∑ k : Fin 1024, lhs (ix2 p k) * rhs (ix2 k n) := by
  simp only [matmul]
  rw [Ideal.matmul_constant_zero_apply, ← Equiv.sum_comp (contrEquiv1 dHidden 1024 rfl rfl).symm]
  refine Finset.sum_congr rfl fun k _ => ?_
  have hk := contrEquiv1_symm_val dHidden 1024 rfl rfl k
  have el : dHidden.lhsIdx (ix2 p n) ((contrEquiv1 dHidden 1024 rfl rfl).symm k) = ix2 p k := funext fun a => Fin.ext (by
    match a with
    | ⟨0, _⟩ => exact hidden_lhs0 _ _
    | ⟨1, _⟩ => exact (hidden_lhs1 _ _).trans hk)
  have er : dHidden.rhsIdx (ix2 p n) ((contrEquiv1 dHidden 1024 rfl rfl).symm k) = ix2 k n := funext fun a => Fin.ext (by
    match a with
    | ⟨0, _⟩ => exact (hidden_rhs0 _ _).trans hk
    | ⟨1, _⟩ => exact hidden_rhs1 _ _)
  rw [el, er]

/-- The second product into a zero accumulator, at sample `p` and column `j`: `∑ₙ lhs (p, n) · rhs (n, j)`. -/
theorem heads_matmul_apply (lhs : FVec Ideal S1024x1024 .bf16) (rhs : FVec Ideal S1024x128 .bf16) (p : Fin 1024) (j : Fin 128) :
    matmul dHeads none lhs rhs (constant S1024x128 .f32 0x00000000#32) (ix2 p j)
      = ∑ n : Fin 1024, lhs (ix2 p n) * rhs (ix2 n j) := by
  simp only [matmul]
  rw [Ideal.matmul_constant_zero_apply, ← Equiv.sum_comp (contrEquiv1 dHeads 1024 rfl rfl).symm]
  refine Finset.sum_congr rfl fun k _ => ?_
  have hk := contrEquiv1_symm_val dHeads 1024 rfl rfl k
  have el : dHeads.lhsIdx (ix2 p j) ((contrEquiv1 dHeads 1024 rfl rfl).symm k) = ix2 p k := funext fun a => Fin.ext (by
    match a with
    | ⟨0, _⟩ => exact heads_lhs0 _ _
    | ⟨1, _⟩ => exact (heads_lhs1 _ _).trans hk)
  have er : dHeads.rhsIdx (ix2 p j) ((contrEquiv1 dHeads 1024 rfl rfl).symm k) = ix2 k j := funext fun a => Fin.ext (by
    match a with
    | ⟨0, _⟩ => exact (heads_rhs0 _ _).trans hk
    | ⟨1, _⟩ => exact heads_rhs1 _ _)
  rw [el, er]

/-! ## The frame block and the state block joined -/

/-- The two blocks joined along the columns, at sample `p` and column `k`: the frame block's entry for the first 64
    columns, the state block's — 64 columns back — for the rest. -/
theorem joined_block_apply (A : FVec Ideal S1024x64 .bf16) (B : FVec Ideal S1024x960 .bf16) (p k : Fin 1024) :
    concatenate S1024x1024 1 [⟨S1024x64, A⟩, ⟨S1024x960, B⟩] concatenates_S1024x64_S1024x960_S1024x1024_d1 (ix2 p k)
      = joinCols (fun c => A (ix2 p c)) (fun c => B (ix2 p c)) k := by
  have hk' : k.val < 1024 := k.isLt
  unfold joinCols
  by_cases hk : k.val < 64
  · rw [dif_pos hk]
    exact concatenate_pair_apply_left (1 : Fin 2) A B concatenates_S1024x64_S1024x960_S1024x1024_d1 (ix2 p k) rfl
      (ix2 p ⟨k.val, hk⟩) (fun b => match b with | ⟨0, _⟩ => rfl | ⟨1, _⟩ => rfl)
  · rw [dif_neg hk]
    exact concatenate_pair_apply_right (1 : Fin 2) A B concatenates_S1024x64_S1024x960_S1024x1024_d1 (ix2 p k) rfl rfl
      (ix2 p ⟨k.val - 64, by omega⟩)
      (fun b hb => match b, hb with | ⟨0, _⟩, _ => rfl | ⟨1, _⟩, hb => absurd rfl hb)
      (by show k.val - 64 + 64 = k.val; omega)

/-! ## The body's pre-activation -/

/-- The 128-column value the body computes before it cuts it in two, at sample `p` of the block and column `j`: the head
    whose weights are column `j` of the side-by-side weights and whose bias is entry `j` of the side-by-side biases, over
    the sample's hidden row. -/
theorem preact_block (P0 : Vec Ideal S1024x64 .f32) (P1 : Vec Ideal S1024x960 .f32) (P2 : Vec Ideal S1024x1024 .bf16)
    (P3 : Vec Ideal S1x1024 .f32) (P4 : Vec Ideal S1024x128 .bf16) (P5 : Vec Ideal S1x128 .f32) (p : Fin 1024) (j : Fin 128) :
    k0_pay1 (F := Ideal) P0 P1 P2 P3 P4 P5 (ix2 p j)
      = headAt (hiddenAt (joinCols (fun c => P0 (ix2 p c)) (fun c => P1 (ix2 p c))) (fun k n => P2 (ix2 k n))
            (fun n => P3 (ix2 (0 : Fin 1) n)))
          (fun n => P4 (ix2 n j)) (P5 (ix2 (0 : Fin 1) j)) := by
  unfold k0_pay1 headAt
  show (matmul dHeads none _ _ (constant S1024x128 .f32 0x00000000#32) (ix2 p j)) + (broadcastTo S1024x128 _ _ (ix2 p j)) = _
  refine congrArg₂ (· + ·) ((heads_matmul_apply _ _ p j).trans (Finset.sum_congr rfl fun n _ => ?_)) ?_
  · refine congrArg₂ (· * ·) ?_ (congrFun (shapeCast_self P4 _) _)
    unfold hiddenAt
    show max ((matmul dHidden none _ _ (constant S1024x1024 .f32 0x00000000#32) (ix2 p n)) + (broadcastTo S1024x1024 _ _ (ix2 p n))) _ = _
    refine congrArg₂ max (congrArg₂ (· + ·) ((hidden_matmul_apply _ _ p n).trans (Finset.sum_congr rfl fun k _ => ?_)) ?_) rfl
    · exact congrArg₂ (· * ·) (joined_block_apply _ _ p k) (congrFun (shapeCast_self P2 _) _)
    · exact (broadcastTo_1b_ab_apply _ _ p n).trans (congrFun (shapeCast_self P3 _) _)
  · exact (broadcastTo_1b_ab_apply _ _ p j).trans (congrFun (shapeCast_self P5 _) _)

/-- The same against whole arrays: if the block's loads agree, entry by entry, with sample `r`'s frame and state rows, with
    the layer matrix transposed, with the bias vector, and — at column `jc` of the 128 — with row `f` of a head's weights
    and entry `f` of its bias, then the body's value at `(p, jc)` is that head's pre-activation at `(r, f)`. -/
theorem preact_of_blocks (P0 : Vec Ideal S1024x64 .f32) (P1 : Vec Ideal S1024x960 .f32) (P2 : Vec Ideal S1024x1024 .bf16)
    (P3 : Vec Ideal S1x1024 .f32) (P4 : Vec Ideal S1024x128 .bf16) (P5 : Vec Ideal S1x128 .f32)
    (x : (⟨2, ![65536, 64]⟩ : Shape).Idx → EReal) (h : (⟨2, ![65536, 960]⟩ : Shape).Idx → EReal)
    (T : (⟨2, ![1024, 1024]⟩ : Shape).Idx → EReal) (b1 : (⟨1, ![1024]⟩ : Shape).Idx → EReal)
    (W : (⟨2, ![64, 1024]⟩ : Shape).Idx → EReal) (β : (⟨1, ![64]⟩ : Shape).Idx → EReal)
    (r : Fin 65536) (p : Fin 1024) (jc : Fin 128) (f : Fin 64)
    (h0 : ∀ c : Fin 64, P0 (ix2 p c) = x (ix2 r c)) (h1 : ∀ c : Fin 960, P1 (ix2 p c) = h (ix2 r c))
    (h2 : ∀ k n : Fin 1024, P2 (ix2 k n) = T (ix2 n k)) (h3 : ∀ n : Fin 1024, P3 (ix2 (0 : Fin 1) n) = b1 (ix1 n))
    (h4 : ∀ n : Fin 1024, P4 (ix2 n jc) = W (ix2 f n)) (h5 : P5 (ix2 (0 : Fin 1) jc) = β (ix1 f)) :
    k0_pay1 (F := Ideal) P0 P1 P2 P3 P4 P5 (ix2 p jc) = preactAt x h T b1 W β r f := by
  have e0 : (fun c : Fin 64 => P0 (ix2 p c)) = fun c => x (ix2 r c) := funext h0
  have e1 : (fun c : Fin 960 => P1 (ix2 p c)) = fun c => h (ix2 r c) := funext h1
  have e2 : (fun k n : Fin 1024 => P2 (ix2 k n)) = fun k n => T (ix2 n k) := funext fun k => funext fun n => h2 k n
  have e3 : (fun n : Fin 1024 => P3 (ix2 (0 : Fin 1) n)) = fun n => b1 (ix1 n) := funext h3
  have e4 : (fun n : Fin 1024 => P4 (ix2 n jc)) = fun n => W (ix2 f n) := funext h4
  rw [preact_block, e0, e1, e2, e3, e4, h5]
  rfl

end Cert.KernelIdeal.Preact

end
-- ==== Proof.Operands.lean ====
/-
  The four arrays the host prepares for the call, read at an index.

  Before the call the host builds, from the argument arrays only:
  • the layer matrix `layerMatrix W1` (a fixed rearrangement of the entries of the first weight argument, taken here as ONE
    function of that argument and never opened), cut into its first 64 and its last 960 columns, each part transposed, the
    two stacked: entry `(k, n)` of the result is entry `(n, k)` of the layer matrix, for every `k` — the transpose;
  • the first bias as one row: entry `(0, n)` is entry `n` of the bias;
  • the two heads' weights, each transposed, side by side: entry `(n, j)` is entry `(j, n)` of the first head's weights
    for `j < 64` and entry `(j - 64, n)` of the second head's for `j ≥ 64`;
  • the two heads' biases end to end, as one row.
  Each is first stated as a whole array (the host operations' composed term) and then read at an index with the library's
  layout lemmas. The changes of float format are the identity on the extended reals.
-/
import proofs.«107216_j48576080117816_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

/-- The layer matrix as the host builds it from the first weight argument `w`: a gather from the vector made of `w`'s
    first column reversed followed by its first row without the first entry, at positions computed from the row and column
    numbers alone. It enters every statement as this one function of `w`. -/
def layerMatrix (w : S1024x1024.Idx → EReal) : S1024x1024.Idx → EReal :=
  Host.gather gather_S2047_S1024x1024x1_S1024x1024_n_0_n_n_0_2_1 (concatenate S2047 0 [⟨S1024, (shapeCast _ (Host.reverse [0] (extractStridedSlice S1024x1 ![0, 0] (w) slices_S1024x1024_S1024x1_0_0)) shapeCasts_S1024x1_S1024)⟩, ⟨S1023, (shapeCast _ (extractStridedSlice S1x1023 ![0, 1] (w) slices_S1024x1024_S1x1023_0_1) shapeCasts_S1x1023_S1023)⟩] concatenates_S1024_S1023_S2047_d0) (broadcastInDim S1024x1024x1 ![0, 1] bcast_S1024x1024_S1024x1024x1_0_1 (select (cmpi .slt (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (addi (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 2047#32))) (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0))))))

variable (m : (ℓ : Loc nD τ sig) → Buf (Elt Ideal) ℓ)

/-! ## The arrays, whole -/

/-- The layer operand: the layer matrix's first 64 columns and last 960 columns, each transposed, stacked. (The two stacked
    pieces are read separately: each is its own chain of host operations.) -/
theorem layer_array (c : Dev nD) :
    (V m c main_v27 : S1024x1024.Idx → EReal) = truncf (F := Ideal) .bf16 (concatenate S1024x1024 0 [⟨S64x1024, transpose S64x1024 [1, 0] (extractStridedSlice S1024x64 ![0, 0] (layerMatrix (m ((c : Thread nD τ).loc main_arg2))) slices_S1024x1024_S1024x64_0_0) transposes_S1024x64_S64x1024_1_0⟩, ⟨S960x1024, transpose S960x1024 [1, 0] (extractStridedSlice S1024x960 ![0, 64] (layerMatrix (m ((c : Thread nD τ).loc main_arg2))) slices_S1024x1024_S1024x960_0_64) transposes_S1024x960_S960x1024_1_0⟩] concatenates_S64x1024_S960x1024_S1024x1024_d0) bitsLt_bf16_f32 := by
  dsimp only [V, hostOps0]
  after_results_simp
  refine congrArg₂ (fun a b => truncf (F := Ideal) .bf16 (concatenate S1024x1024 0 [⟨S64x1024, a⟩, ⟨S960x1024, b⟩] concatenates_S64x1024_S960x1024_S1024x1024_d0) bitsLt_bf16_f32) ?_ ?_ <;>
    (after_results_simp <;> rfl)

/-- The first bias as one row. -/
theorem bias_array (c : Dev nD) :
    (V m c main_v32 : S1x1024.Idx → EReal) = shapeCast S1x1024 (m ((c : Thread nD τ).loc main_arg3)) shapeCasts_S1024_S1x1024 := by
  dsimp only [V, hostOps0]
  after_results_simp <;> rfl

/-- The two heads' weights, each transposed, side by side. -/
theorem heads_weights_array (c : Dev nD) :
    (V m c main_v31 : S1024x128.Idx → EReal) = truncf (F := Ideal) .bf16 (concatenate S1024x128 1 [⟨S1024x64, transpose S1024x64 [1, 0] (m ((c : Thread nD τ).loc main_arg4)) transposes_S64x1024_S1024x64_1_0⟩, ⟨S1024x64, transpose S1024x64 [1, 0] (m ((c : Thread nD τ).loc main_arg6)) transposes_S64x1024_S1024x64_1_0⟩] concatenates_S1024x64_S1024x64_S1024x128_d1) bitsLt_bf16_f32 := by
  dsimp only [V, hostOps0]
  after_results_simp
  refine congrArg₂ (fun a b => truncf (F := Ideal) .bf16 (concatenate S1024x128 1 [⟨S1024x64, a⟩, ⟨S1024x64, b⟩] concatenates_S1024x64_S1024x64_S1024x128_d1) bitsLt_bf16_f32) ?_ ?_ <;>
    (after_results_simp <;> rfl)

/-- The two heads' biases end to end, as one row. -/
theorem heads_bias_array (c : Dev nD) :
    (V m c main_v34 : S1x128.Idx → EReal) = shapeCast S1x128 (concatenate S128 0 [⟨S64, m ((c : Thread nD τ).loc main_arg5)⟩, ⟨S64, m ((c : Thread nD τ).loc main_arg7)⟩] concatenates_S64_S64_S128_d0) shapeCasts_S128_S1x128 := by
  dsimp only [V, hostOps0]
  after_results_simp
  refine congrArg₂ (fun a b => shapeCast S1x128 (concatenate S128 0 [⟨S64, a⟩, ⟨S64, b⟩] concatenates_S64_S64_S128_d0) shapeCasts_S128_S1x128) ?_ ?_ <;>
    (after_results_simp <;> rfl)

/-! ## The arrays at an index -/

/-- The layer operand is the layer matrix transposed: the row `k` that the stacking puts in the upper part (`k < 64`) or in
    the lower part (`k ≥ 64`, at row `k - 64` of it) is column `k` of the matrix either way. -/
theorem layer_apply (c : Dev nD) (k n : Fin 1024) :
    (V m c main_v27 : S1024x1024.Idx → EReal) (ix2 k n) = layerMatrix (m ((c : Thread nD τ).loc main_arg2)) (ix2 n k) := by
  have hk' : k.val < 1024 := k.isLt
  rw [layer_array m c]
  show concatenate S1024x1024 0 [⟨S64x1024, _⟩, ⟨S960x1024, _⟩] concatenates_S64x1024_S960x1024_S1024x1024_d0 (ix2 k n) = _
  by_cases hk : k.val < 64
  · refine (concatenate_pair_apply_left (t := S1024x1024) (s₁ := S64x1024) (s₂ := S960x1024) (0 : Fin 2) _ _
      concatenates_S64x1024_S960x1024_S1024x1024_d0 (ix2 k n) rfl
      (ix2 (⟨k.val, hk⟩ : Fin 64) n) (fun b => match b with | ⟨0, _⟩ => rfl | ⟨1, _⟩ => rfl)).trans ?_
    refine (transpose_ix2_apply _ _ (⟨k.val, hk⟩ : Fin 64) n).trans ?_
    exact slice2_axis1_apply 0 _ _ n (⟨k.val, hk⟩ : Fin 64) k (Nat.zero_add _).symm
  · refine (concatenate_pair_apply_right (t := S1024x1024) (s₁ := S64x1024) (s₂ := S960x1024) (0 : Fin 2) _ _
      concatenates_S64x1024_S960x1024_S1024x1024_d0 (ix2 k n) rfl rfl
      (ix2 (⟨k.val - 64, by omega⟩ : Fin 960) n)
      (fun b hb => match b, hb with | ⟨0, _⟩, hb => absurd rfl hb | ⟨1, _⟩, _ => rfl)
      (by show k.val - 64 + 64 = k.val; omega)).trans ?_
    refine (transpose_ix2_apply _ _ (⟨k.val - 64, by omega⟩ : Fin 960) n).trans ?_
    exact slice2_axis1_apply 64 _ _ n (⟨k.val - 64, by omega⟩ : Fin 960) k (by show k.val = 64 + (k.val - 64); omega)

/-- The bias row at `(0, n)` is the bias at `n`. -/
theorem bias_apply (c : Dev nD) (n : Fin 1024) :
    (V m c main_v32 : S1x1024.Idx → EReal) (ix2 (0 : Fin 1) n) = m ((c : Thread nD τ).loc main_arg3) (ix1 n) := by
  rw [bias_array m c]
  exact shapeCast_a_1a_apply _ _ (0 : Fin 1) n

/-- A column of the first 64 of the side-by-side weights is a row of the first head's weights. -/
theorem heads_weights_left (c : Dev nD) (n : Fin 1024) (f : Fin 64) (jc : Fin 128) (hj : jc.val = f.val) :
    (V m c main_v31 : S1024x128.Idx → EReal) (ix2 n jc) = m ((c : Thread nD τ).loc main_arg4) (ix2 f n) := by
  rw [heads_weights_array m c]
  show concatenate S1024x128 1 [⟨S1024x64, _⟩, ⟨S1024x64, _⟩] concatenates_S1024x64_S1024x64_S1024x128_d1 (ix2 n jc) = _
  refine (concatenate_pair_apply_left (t := S1024x128) (s₁ := S1024x64) (s₂ := S1024x64) (1 : Fin 2) _ _ concatenates_S1024x64_S1024x64_S1024x128_d1 (ix2 n jc) rfl
    (ix2 n f) (fun b => match b with | ⟨0, _⟩ => rfl | ⟨1, _⟩ => hj.symm)).trans ?_
  exact transpose_ix2_apply _ _ n f

/-- A column of the last 64 of the side-by-side weights is a row of the second head's weights. -/
theorem heads_weights_right (c : Dev nD) (n : Fin 1024) (f : Fin 64) (jc : Fin 128) (hj : jc.val = f.val + 64) :
    (V m c main_v31 : S1024x128.Idx → EReal) (ix2 n jc) = m ((c : Thread nD τ).loc main_arg6) (ix2 f n) := by
  rw [heads_weights_array m c]
  show concatenate S1024x128 1 [⟨S1024x64, _⟩, ⟨S1024x64, _⟩] concatenates_S1024x64_S1024x64_S1024x128_d1 (ix2 n jc) = _
  refine (concatenate_pair_apply_right (t := S1024x128) (s₁ := S1024x64) (s₂ := S1024x64) (1 : Fin 2) _ _ concatenates_S1024x64_S1024x64_S1024x128_d1 (ix2 n jc) rfl rfl
    (ix2 n f) (fun b hb => match b, hb with | ⟨0, _⟩, _ => rfl | ⟨1, _⟩, hb => absurd rfl hb)
    (by show f.val + 64 = jc.val; omega)).trans ?_
  exact transpose_ix2_apply _ _ n f

/-- An entry of the first 64 of the end-to-end biases is the first head's bias. -/
theorem heads_bias_left (c : Dev nD) (f : Fin 64) (jc : Fin 128) (hj : jc.val = f.val) :
    (V m c main_v34 : S1x128.Idx → EReal) (ix2 (0 : Fin 1) jc) = m ((c : Thread nD τ).loc main_arg5) (ix1 f) := by
  rw [heads_bias_array m c]
  refine (shapeCast_a_1a_apply _ _ (0 : Fin 1) jc).trans ?_
  exact concatenate_pair_apply_left (t := S128) (s₁ := S64) (s₂ := S64) (0 : Fin 1) _ _ concatenates_S64_S64_S128_d0 (ix1 jc) rfl (ix1 f)
    (fun b => match b with | ⟨0, _⟩ => hj.symm)

/-- An entry of the last 64 of the end-to-end biases is the second head's bias. -/
theorem heads_bias_right (c : Dev nD) (f : Fin 64) (jc : Fin 128) (hj : jc.val = f.val + 64) :
    (V m c main_v34 : S1x128.Idx → EReal) (ix2 (0 : Fin 1) jc) = m ((c : Thread nD τ).loc main_arg7) (ix1 f) := by
  rw [heads_bias_array m c]
  refine (shapeCast_a_1a_apply _ _ (0 : Fin 1) jc).trans ?_
  exact concatenate_pair_apply_right (t := S128) (s₁ := S64) (s₂ := S64) (0 : Fin 1) _ _ concatenates_S64_S64_S128_d0 (ix1 jc) rfl rfl (ix1 f)
    (fun b hb => match b, hb with | ⟨0, _⟩, hb => absurd rfl hb)
    (by show f.val + 64 = jc.val; omega)

end Cert.KernelIdeal.Operands

end
-- ==== Proof.KernelValue.lean ====
/-
  The kernel's two result arrays as whole-array functions of its arguments.

  The call runs over 64 points; point `t` works on samples `1024 t` to `1024 t + 1023`: it is handed those rows of the
  frame and of the state, and — the same at every point — the four arrays the host prepared (Operands). What it writes back
  to each result is the corresponding 1024 rows of one whole-array function of the arguments: the squashed head for the
  first result, the plain head for the second (`flushed6_eq`, `flushed7_eq`). The 64 blocks of rows cover all 65536 samples
  (`cover6`, `cover7`), so each result array ends holding that function everywhere (`slope_array`, `intercept_array`), and the
  run is re-posted with both (`run`).
-/
import proofs.«107216_j48576080117816_2_alg».proof.Proof.Gen.KernelIdeal.Value
import proofs.«107216_j48576080117816_2_alg».proof.Proof.Preact
import proofs.«107216_j48576080117816_2_alg».proof.Proof.Operands
import proofs.«107216_j48576080117816_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.ToepMlp

variable (m : (ℓ : Loc nD τ sig) → Buf (Elt Ideal) ℓ) (ρ : Dev nD → PrngReg)

theorem hz : (![0, 0] : Fin 2 → Nat) = fun _ => 0 := funext fun a => by fin_cases a <;> rfl

/-- The squashed head of the argument arrays as launched, over the host's layer matrix. -/
abbrev slopeOf (c : Dev nD) : S65536x64.Idx → EReal :=
  slope (m ((c : Thread nD τ).loc main_arg0)) (m ((c : Thread nD τ).loc main_arg1)) (Operands.layerMatrix (m ((c : Thread nD τ).loc main_arg2))) (m ((c : Thread nD τ).loc main_arg3)) (m ((c : Thread nD τ).loc main_arg4)) (m ((c : Thread nD τ).loc main_arg5))

/-- The plain head of the argument arrays as launched, over the host's layer matrix. -/
abbrev interceptOf (c : Dev nD) : S65536x64.Idx → EReal :=
  intercept (m ((c : Thread nD τ).loc main_arg0)) (m ((c : Thread nD τ).loc main_arg1)) (Operands.layerMatrix (m ((c : Thread nD τ).loc main_arg2))) (m ((c : Thread nD τ).loc main_arg3)) (m ((c : Thread nD τ).loc main_arg6)) (m ((c : Thread nD τ).loc main_arg7))

/-- The printed index maps, decided over the 64 points: the two results' blocks and the frame's and the state's move down
    one block of rows per point and stay in column block 0; the four resident operands stay at block (0, 0). -/
theorem idx_facts : ∀ t : Fin cfg0.N,
    win0_6.index t (0 : Fin 2) = t.val ∧ win0_6.index t (1 : Fin 2) = 0
    ∧ win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The input blocks at a point -/

/-- The frame block at point `t` is rows `1024 t` on of the frame argument. -/
theorem frame_block (c : Dev nD) (t : Fin cfg0.N) (p : Fin 1024) (cc : Fin 64) (r : Fin 65536) (hr : r.val = t.val * 1024 + p.val) :
    (iblk m c 0 t : S1024x64.Idx → EReal) (ix2 p cc) = (m ((c : Thread nD τ).loc main_arg0)) (ix2 r cc) := by
  obtain ⟨-, -, -, -, e0, e1, -⟩ := idx_facts t
  show V m c main_arg0 (((cfg0.win 0).blk t).view.emb (ix2 p cc)) = _
  have he : ((cfg0.win 0).blk t).view.emb (ix2 p cc) = ix2 r cc := by
    funext a; apply Fin.ext
    match a with
    | ⟨0, _⟩ => show win0_0.index t (0 : Fin 2) * 1024 + 1 * p.val = r.val; omega
    | ⟨1, _⟩ => show win0_0.index t (1 : Fin 2) * 64 + 1 * cc.val = cc.val; omega
  rw [he, V_main_arg0]

/-- The state block at point `t` is rows `1024 t` on of the state argument. -/
theorem state_block (c : Dev nD) (t : Fin cfg0.N) (p : Fin 1024) (cc : Fin 960) (r : Fin 65536) (hr : r.val = t.val * 1024 + p.val) :
    (iblk m c 1 t : S1024x960.Idx → EReal) (ix2 p cc) = (m ((c : Thread nD τ).loc main_arg1)) (ix2 r cc) := by
  obtain ⟨-, -, -, -, -, -, e0, e1, -⟩ := idx_facts t
  show V m c main_arg1 (((cfg0.win 1).blk t).view.emb (ix2 p cc)) = _
  have he : ((cfg0.win 1).blk t).view.emb (ix2 p cc) = ix2 r cc := by
    funext a; apply Fin.ext
    match a with
    | ⟨0, _⟩ => show win0_1.index t (0 : Fin 2) * 1024 + 1 * p.val = r.val; omega
    | ⟨1, _⟩ => show win0_1.index t (1 : Fin 2) * 960 + 1 * cc.val = cc.val; omega
  rw [he, V_main_arg1]

/-- The layer operand's block is the whole array, at every point. -/
theorem layer_block (c : Dev nD) (t : Fin cfg0.N) (k n : Fin 1024) :
    (iblk m c 2 t : S1024x1024.Idx → EReal) (ix2 k n) = (V m c main_v27 : S1024x1024.Idx → EReal) (ix2 k n) := by
  obtain ⟨-, -, -, -, -, -, -, -, e0, e1, -⟩ := idx_facts t
  show V m c main_v27 (((cfg0.win 2).blk t).view.emb (ix2 k n)) = _
  have he : ((cfg0.win 2).blk t).view.emb (ix2 k n) = ix2 k n := by
    funext a; apply Fin.ext
    match a with
    | ⟨0, _⟩ => show win0_2.index t (0 : Fin 2) * 1024 + 1 * k.val = k.val; omega
    | ⟨1, _⟩ => show win0_2.index t (1 : Fin 2) * 1024 + 1 * n.val = n.val; omega
  rw [he]

/-- The bias row's block is the whole row, at every point. -/
theorem bias_block (c : Dev nD) (t : Fin cfg0.N) (n : Fin 1024) :
    (iblk m c 3 t : S1x1024.Idx → EReal) (ix2 (0 : Fin 1) n) = (V m c main_v32 : S1x1024.Idx → EReal) (ix2 (0 : Fin 1) n) := by
  obtain ⟨-, -, -, -, -, -, -, -, -, -, e0, e1, -⟩ := idx_facts t
  show V m c main_v32 (((cfg0.win 3).blk t).view.emb (ix2 (0 : Fin 1) n)) = _
  have he : ((cfg0.win 3).blk t).view.emb (ix2 (0 : Fin 1) n) = ix2 (0 : Fin 1) n := by
    funext a; apply Fin.ext
    match a with
    | ⟨0, _⟩ => show win0_3.index t (0 : Fin 2) * 1 + 1 * 0 = 0; omega
    | ⟨1, _⟩ => show win0_3.index t (1 : Fin 2) * 1024 + 1 * n.val = n.val; omega
  rw [he]

/-- The side-by-side head weights' block is the whole array, at every point. -/
theorem heads_weights_block (c : Dev nD) (t : Fin cfg0.N) (n : Fin 1024) (jc : Fin 128) :
    (iblk m c 4 t : S1024x128.Idx → EReal) (ix2 n jc) = (V m c main_v31 : S1024x128.Idx → EReal) (ix2 n jc) := by
  obtain ⟨-, -, -, -, -, -, -, -, -, -, -, -, e0, e1, -⟩ := idx_facts t
  show V m c main_v31 (((cfg0.win 4).blk t).view.emb (ix2 n jc)) = _
  have he : ((cfg0.win 4).blk t).view.emb (ix2 n jc) = ix2 n jc := by
    funext a; apply Fin.ext
    match a with
    | ⟨0, _⟩ => show win0_4.index t (0 : Fin 2) * 1024 + 1 * n.val = n.val; omega
    | ⟨1, _⟩ => show win0_4.index t (1 : Fin 2) * 128 + 1 * jc.val = jc.val; omega
  rw [he]

/-- The end-to-end head biases' block is the whole row, at every point. -/
theorem heads_bias_block (c : Dev nD) (t : Fin cfg0.N) (jc : Fin 128) :
    (iblk m c 5 t : S1x128.Idx → EReal) (ix2 (0 : Fin 1) jc) = (V m c main_v34 : S1x128.Idx → EReal) (ix2 (0 : Fin 1) jc) := by
  obtain ⟨-, -, -, -, -, -, -, -, -, -, -, -, -, -, e0, e1⟩ := idx_facts t
  show V m c main_v34 (((cfg0.win 5).blk t).view.emb (ix2 (0 : Fin 1) jc)) = _
  have he : ((cfg0.win 5).blk t).view.emb (ix2 (0 : Fin 1) jc) = ix2 (0 : Fin 1) jc := by
    funext a; apply Fin.ext
    match a with
    | ⟨0, _⟩ => show win0_5.index t (0 : Fin 2) * 1 + 1 * 0 = 0; omega
    | ⟨1, _⟩ => show win0_5.index t (1 : Fin 2) * 128 + 1 * jc.val = jc.val; omega
  rw [he]

/-! ## What each point writes back -/

/-- WHAT POINT `t` WRITES BACK to the first result: block `t` — samples `1024 t` to `1024 t + 1023` — of the squashed head of the
    argument arrays. Entry `(p, f)` of what the body leaves is the `tanh` of the 128-column pre-activation at column `f`, whose
    weights and bias are the first head's; the frame and state blocks are the rows of the arrays from `1024 t` on, and the
    four resident operands are the host's arrays whole. -/
theorem flushed6_eq (c : Dev nD) (t : Fin cfg0.N) :
    (dats m 0 c).flushed 6 t = ((cfg0.win 6).blk t).view.read (Elt Ideal) (slopeOf m c) := by
  rw [Value.flushed6]
  funext j
  have hj0 : (j 0).val < 1024 := (j 0).isLt
  have hj1 : (j 1).val < 64 := (j 1).isLt
  have ht : t.val < 64 := by have h := t.isLt; have hN : cfg0.N = 64 := N_0; omega
  obtain ⟨e60, e61, e70, e71, -⟩ := idx_facts t
  show out0_6 (iblk m c 0 t) (iblk m c 1 t) (iblk m c 2 t) (iblk m c 3 t) (iblk m c 4 t) (iblk m c 5 t) j = slopeOf m c (((cfg0.win 6).blk t).view.emb j)
  have hemb : ((cfg0.win 6).blk t).view.emb j
      = ix2 (⟨t.val * 1024 + (j 0).val, by omega⟩ : Fin 65536) (⟨(j 1).val, hj1⟩ : Fin 64) := by
    funext a; apply Fin.ext
    match a with
    | ⟨0, _⟩ => show win0_6.index t (0 : Fin 2) * 1024 + 1 * (j 0).val = t.val * 1024 + (j 0).val; omega
    | ⟨1, _⟩ => show win0_6.index t (1 : Fin 2) * 64 + 1 * (j 1).val = (j 1).val; omega
  rw [hemb]
  unfold out0_6
  refine (Value.canon6_eq (View.ld (iblk m c 0 t) r0_0) (View.ld (iblk m c 1 t) r0_1) (View.ld (iblk m c 2 t) r0_2) (View.ld (iblk m c 3 t) r0_3) (View.ld (iblk m c 4 t) r0_4) (View.ld (iblk m c 5 t) r0_5) j).trans ?_
  simp only [View.ld_unit_zero (S := S1024x64) hz, View.ld_unit_zero (S := S1024x960) hz, View.ld_unit_zero (S := S1024x1024) hz, View.ld_unit_zero (S := S1x1024) hz, View.ld_unit_zero (S := S1024x128) hz, View.ld_unit_zero (S := S1x128) hz]
  have hix : Value.ix6_0 j = ix2 (⟨(j 0).val, hj0⟩ : Fin 1024) (⟨(j 1).val, by omega⟩ : Fin 128) :=
    funext fun a => Fin.ext (by match a with | ⟨0, _⟩ => rfl | ⟨1, _⟩ => rfl)
  show Ideal.tanh (k0_pay1 (F := Ideal) (iblk m c 0 t) (iblk m c 1 t) (iblk m c 2 t) (iblk m c 3 t) (iblk m c 4 t) (iblk m c 5 t) (Value.ix6_0 j)) = _
  rw [hix]
  refine congrArg Ideal.tanh ?_
  exact Preact.preact_of_blocks (iblk m c 0 t) (iblk m c 1 t) (iblk m c 2 t) (iblk m c 3 t) (iblk m c 4 t) (iblk m c 5 t)
    (m ((c : Thread nD τ).loc main_arg0)) (m ((c : Thread nD τ).loc main_arg1)) (Operands.layerMatrix (m ((c : Thread nD τ).loc main_arg2))) (m ((c : Thread nD τ).loc main_arg3)) (m ((c : Thread nD τ).loc main_arg4)) (m ((c : Thread nD τ).loc main_arg5))
    (⟨t.val * 1024 + (j 0).val, by omega⟩ : Fin 65536) (⟨(j 0).val, hj0⟩ : Fin 1024) (⟨(j 1).val, by omega⟩ : Fin 128) (⟨(j 1).val, hj1⟩ : Fin 64)
    (fun cc => frame_block m c t _ cc _ rfl) (fun cc => state_block m c t _ cc _ rfl)
    (fun k n => (layer_block m c t k n).trans (Operands.layer_apply m c k n))
    (fun n => (bias_block m c t n).trans (Operands.bias_apply m c n))
    (fun n => (heads_weights_block m c t n _).trans (Operands.heads_weights_left m c n _ _ rfl))
    ((heads_bias_block m c t _).trans (Operands.heads_bias_left m c _ _ rfl))

/-- WHAT POINT `t` WRITES BACK to the second result: block `t` — samples `1024 t` to `1024 t + 1023` — of the plain head of the
    argument arrays. Entry `(p, f)` of what the body leaves is the 128-column pre-activation at column `f + 64`, whose
    weights and bias are the second head's; the frame and state blocks are the rows of the arrays from `1024 t` on, and the
    four resident operands are the host's arrays whole. -/
theorem flushed7_eq (c : Dev nD) (t : Fin cfg0.N) :
    (dats m 0 c).flushed 7 t = ((cfg0.win 7).blk t).view.read (Elt Ideal) (interceptOf m c) := by
  rw [Value.flushed7]
  funext j
  have hj0 : (j 0).val < 1024 := (j 0).isLt
  have hj1 : (j 1).val < 64 := (j 1).isLt
  have ht : t.val < 64 := by have h := t.isLt; have hN : cfg0.N = 64 := N_0; omega
  obtain ⟨e60, e61, e70, e71, -⟩ := idx_facts t
  show out0_7 (iblk m c 0 t) (iblk m c 1 t) (iblk m c 2 t) (iblk m c 3 t) (iblk m c 4 t) (iblk m c 5 t) j = interceptOf m c (((cfg0.win 7).blk t).view.emb j)
  have hemb : ((cfg0.win 7).blk t).view.emb j
      = ix2 (⟨t.val * 1024 + (j 0).val, by omega⟩ : Fin 65536) (⟨(j 1).val, hj1⟩ : Fin 64) := by
    funext a; apply Fin.ext
    match a with
    | ⟨0, _⟩ => show win0_7.index t (0 : Fin 2) * 1024 + 1 * (j 0).val = t.val * 1024 + (j 0).val; omega
    | ⟨1, _⟩ => show win0_7.index t (1 : Fin 2) * 64 + 1 * (j 1).val = (j 1).val; omega
  rw [hemb]
  unfold out0_7
  refine (Value.canon7_eq (View.ld (iblk m c 0 t) r0_0) (View.ld (iblk m c 1 t) r0_1) (View.ld (iblk m c 2 t) r0_2) (View.ld (iblk m c 3 t) r0_3) (View.ld (iblk m c 4 t) r0_4) (View.ld (iblk m c 5 t) r0_5) j).trans ?_
  simp only [View.ld_unit_zero (S := S1024x64) hz, View.ld_unit_zero (S := S1024x960) hz, View.ld_unit_zero (S := S1024x1024) hz, View.ld_unit_zero (S := S1x1024) hz, View.ld_unit_zero (S := S1024x128) hz, View.ld_unit_zero (S := S1x128) hz]
  have hix : Value.ix7_0 j = ix2 (⟨(j 0).val, hj0⟩ : Fin 1024) (⟨(j 1).val + 64, by omega⟩ : Fin 128) :=
    funext fun a => Fin.ext (by match a with | ⟨0, _⟩ => rfl | ⟨1, _⟩ => rfl)
  show (k0_pay1 (F := Ideal) (iblk m c 0 t) (iblk m c 1 t) (iblk m c 2 t) (iblk m c 3 t) (iblk m c 4 t) (iblk m c 5 t) (Value.ix7_0 j)) = _
  rw [hix]
  exact Preact.preact_of_blocks (iblk m c 0 t) (iblk m c 1 t) (iblk m c 2 t) (iblk m c 3 t) (iblk m c 4 t) (iblk m c 5 t)
    (m ((c : Thread nD τ).loc main_arg0)) (m ((c : Thread nD τ).loc main_arg1)) (Operands.layerMatrix (m ((c : Thread nD τ).loc main_arg2))) (m ((c : Thread nD τ).loc main_arg3)) (m ((c : Thread nD τ).loc main_arg6)) (m ((c : Thread nD τ).loc main_arg7))
    (⟨t.val * 1024 + (j 0).val, by omega⟩ : Fin 65536) (⟨(j 0).val, hj0⟩ : Fin 1024) (⟨(j 1).val + 64, by omega⟩ : Fin 128) (⟨(j 1).val, hj1⟩ : Fin 64)
    (fun cc => frame_block m c t _ cc _ rfl) (fun cc => state_block m c t _ cc _ rfl)
    (fun k n => (layer_block m c t k n).trans (Operands.layer_apply m c k n))
    (fun n => (bias_block m c t n).trans (Operands.bias_apply m c n))
    (fun n => (heads_weights_block m c t n _).trans (Operands.heads_weights_right m c n _ _ rfl))
    ((heads_bias_block m c t _).trans (Operands.heads_bias_right m c _ _ rfl))

/-! ## The blocks cover the arrays -/

/-- An index of the result array is in point `t`'s block iff each coordinate is in the block's range on its axis. -/
theorem mem_blk6 (t : Fin cfg0.N) (i : S65536x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v35_0).slice (win0_6.rect t)).set ↔ _
  rw [View.set_slice_whole, Rect.mem_set_unit]
  exact Iff.rfl

/-- Every sample's row is written back by some point: sample `r` by point `r / 1024`. -/
theorem cover6 (i : S65536x64.Idx) : ∃ t : Fin cfg0.N, (cfg0.win 6).flush t = true ∧ i ∈ ((cfg0.win 6).blk t).view.set := by
  have hi0 : (i 0).val < 65536 := (i 0).isLt
  have hi1 : (i 1).val < 64 := (i 1).isLt
  have hN : cfg0.N = 64 := N_0
  refine ⟨⟨(i 0).val / 1024, by rw [hN]; omega⟩, flush0_6 _, ?_⟩
  rw [mem_blk6]
  obtain ⟨e60, e61, e70, e71, -⟩ := idx_facts ⟨(i 0).val / 1024, by rw [hN]; omega⟩
  intro a
  match a with
  | ⟨0, _⟩ =>
    show win0_6.index _ (0 : Fin 2) * 1024 ≤ (i 0).val ∧ (i 0).val < win0_6.index _ (0 : Fin 2) * 1024 + 1024
    rw [e60]; show (i 0).val / 1024 * 1024 ≤ (i 0).val ∧ (i 0).val < (i 0).val / 1024 * 1024 + 1024; omega
  | ⟨1, _⟩ =>
    show win0_6.index _ (1 : Fin 2) * 64 ≤ (i 1).val ∧ (i 1).val < win0_6.index _ (1 : Fin 2) * 64 + 64
    rw [e61]; omega

/-- An index of the result array is in point `t`'s block iff each coordinate is in the block's range on its axis. -/
theorem mem_blk7 (t : Fin cfg0.N) (i : S65536x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v35_1).slice (win0_7.rect t)).set ↔ _
  rw [View.set_slice_whole, Rect.mem_set_unit]
  exact Iff.rfl

/-- Every sample's row is written back by some point: sample `r` by point `r / 1024`. -/
theorem cover7 (i : S65536x64.Idx) : ∃ t : Fin cfg0.N, (cfg0.win 7).flush t = true ∧ i ∈ ((cfg0.win 7).blk t).view.set := by
  have hi0 : (i 0).val < 65536 := (i 0).isLt
  have hi1 : (i 1).val < 64 := (i 1).isLt
  have hN : cfg0.N = 64 := N_0
  refine ⟨⟨(i 0).val / 1024, by rw [hN]; omega⟩, flush0_7 _, ?_⟩
  rw [mem_blk7]
  obtain ⟨e60, e61, e70, e71, -⟩ := idx_facts ⟨(i 0).val / 1024, by rw [hN]; omega⟩
  intro a
  match a with
  | ⟨0, _⟩ =>
    show win0_7.index _ (0 : Fin 2) * 1024 ≤ (i 0).val ∧ (i 0).val < win0_7.index _ (0 : Fin 2) * 1024 + 1024
    rw [e70]; show (i 0).val / 1024 * 1024 ≤ (i 0).val ∧ (i 0).val < (i 0).val / 1024 * 1024 + 1024; omega
  | ⟨1, _⟩ =>
    show win0_7.index _ (1 : Fin 2) * 64 ≤ (i 1).val ∧ (i 1).val < win0_7.index _ (1 : Fin 2) * 64 + 64
    rw [e71]; omega

/-! ## The arrays after the run -/

/-- The first result array ends holding the squashed head, everywhere. -/
theorem slope_array (c : Dev nD) : (dats m 0 c).arrAt 6 cfg0.N = slopeOf m c :=
  (dats m 0 c).arrAt_eq_of_cover 6 (slopeOf m c) (fun t _ => flushed6_eq m c t) cover6

/-- The second result array ends holding the plain head, everywhere. -/
theorem intercept_array (c : Dev nD) : (dats m 0 c).arrAt 7 cfg0.N = interceptOf m c :=
  (dats m 0 c).arrAt_eq_of_cover 7 (interceptOf m c) (fun t _ => flushed7_eq m c t) cover7

/-- The run re-posted: each result array at its function of the arguments, the arguments unchanged. -/
theorem run : θ_run defs (onTc (τ := τ) (main (F := Ideal))) ⟨m, fun _ => 0, ρ⟩ fun r => ∀ c : Dev nD,
      r.2.mem ((c : Thread nD τ).loc main_v35_0) = slopeOf m c
      ∧ r.2.mem ((c : Thread nD τ).loc main_v35_1) = interceptOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (slope_array m c), (h c).2.1.trans (intercept_array m c), (h c).2.2⟩)
    (Value.run_blocks m ρ)

end Cert.KernelIdeal.KernelValue

end
-- ==== Proof.RefValue.lean ====
/-
  The reference computes the specification.

  Its two results are read one operation at a time (the generated read-at-an-index lemmas): at sample `r` and output `f`
  each is a sum over the 1024 hidden units of a rectified affine form times a head weight, plus a head bias; the affine
  form is itself a sum over the 1024 joined input columns against the TRANSPOSE of the layer matrix, so that the weight from
  input `k` to unit `n` is the matrix's entry `(n, k)`. The one operation read by hand is the joining of the frame and the
  state along the columns. The layer matrix stays the reference's own term of the first weight argument and is never
  opened.
-/
import proofs.«107216_j48576080117816_2_alg».proof.Proof.Gen.ReferenceIdeal.Read
import proofs.«107216_j48576080117816_2_alg».proof.Proof.Spec

noncomputable section

namespace Cert.ReferenceIdeal.RefValue

open Cert.ReferenceIdeal Cert.ReferenceIdeal.Gen Idealize.ShloMosaic Idealize.ShloMosaic.ValueIdx Cert.ToepMlp

/-- The frame and the state joined along the columns, at sample `r` and column `k`: the frame's entry for the first 64
    columns, the state's — 64 columns back — for the rest. -/
theorem joined_apply (x0 : (⟨S65536x64, .f32⟩ : BufTy).Contents (Elt Ideal)) (x1 : (⟨S65536x960, .f32⟩ : BufTy).Contents (Elt Ideal))
    (r : Fin 65536) (k : Fin 1024) :
    Read.val_main_v22 (F := Ideal) x0 x1 (ix2 r k) = joinCols (fun c => x0 (ix2 r c)) (fun c => x1 (ix2 r c)) k := by
  have hk' : k.val < 1024 := k.isLt
  unfold Read.val_main_v22 joinCols
  by_cases hk : k.val < 64
  · rw [dif_pos hk]
    exact concatenate_pair_apply_left (1 : Fin 2) x0 x1 concatenates_S65536x64_S65536x960_S65536x1024_d1 (ix2 r k) rfl
      (ix2 r ⟨k.val, hk⟩) (fun b => match b with | ⟨0, _⟩ => rfl | ⟨1, _⟩ => rfl)
  · rw [dif_neg hk]
    exact concatenate_pair_apply_right (1 : Fin 2) x0 x1 concatenates_S65536x64_S65536x960_S65536x1024_d1 (ix2 r k) rfl rfl
      (ix2 r ⟨k.val - 64, by omega⟩)
      (fun b hb => match b, hb with | ⟨0, _⟩, _ => rfl | ⟨1, _⟩, hb => absurd rfl hb)
      (by show k.val - 64 + 64 = k.val; omega)

/-- Hidden unit `n` of sample `r`, as the reference computes it: the joined row against column `n` of the transposed layer
    matrix, plus the bias, rectified. -/
theorem hidden_apply (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (r : Fin 65536) (n : Fin 1024) :
    Read.val_main_v28 (F := Ideal) x0 x1 x2 x3 (ix2 r n)
      = hiddenAt (joinCols (fun c => x0 (ix2 r c)) (fun c => x1 (ix2 r c)))
          (fun k n => Read.val_main_v21 (F := Ideal) x2 (ix2 n k)) (fun n => x3 (ix1 n)) n := by
  rw [Read.val_main_v28_apply, Read.val_main_v27_apply, Read.val_main_v24_apply, Read.val_main_v26_apply,
    Read.val_main_v25_apply, Read.val_main_call0_v0_apply, Read.val_main_call0_cst_apply]
  unfold hiddenAt
  show max ((∑ k : Fin 1024, _) + _) _ = _
  refine congrArg₂ max (congrArg₂ (· + ·) (Finset.sum_congr rfl fun k _ => ?_) ?_) rfl
  · rw [Read.val_main_v23_apply]
    have e1 : Read.lidx_main_v24 (ix2 r n) k = ix2 r k :=
      funext fun a => Fin.ext (by match a with | ⟨0, _⟩ => rfl | ⟨1, _⟩ => rfl)
    have e2 : Read.idx_main_v23 (Read.ridx_main_v24 (ix2 r n) k) = ix2 n k :=
      funext fun a => Fin.ext (by match a with | ⟨0, _⟩ => rfl | ⟨1, _⟩ => rfl)
    rw [e1, e2, joined_apply]
  · exact congrArg x3 (funext fun a => Fin.ext (by match a with | ⟨0, _⟩ => rfl))

/-- The first head before `tanh`, as the reference computes it, is the specification's pre-activation. -/
theorem slope_preact_apply (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x4 : (⟨S64x1024, .f32⟩ : BufTy).Contents (Elt Ideal)) (x5 : (⟨S64, .f32⟩ : BufTy).Contents (Elt Ideal))
    (r : Fin 65536) (f : Fin 64) :
    Read.val_main_v33 (F := Ideal) x0 x1 x2 x3 x4 x5 (ix2 r f)
      = preactAt x0 x1 (Read.val_main_v21 (F := Ideal) x2) x3 x4 x5 r f := by
  rw [Read.val_main_v33_apply, Read.val_main_v30_apply, Read.val_main_v32_apply, Read.val_main_v31_apply]
  unfold preactAt headAt
  show (∑ k : Fin 1024, _) + _ = _
  refine congrArg₂ (· + ·) (Finset.sum_congr rfl fun k _ => ?_) ?_
  · rw [Read.val_main_v29_apply]
    have e1 : Read.lidx_main_v30 (ix2 r f) k = ix2 r k :=
      funext fun a => Fin.ext (by match a with | ⟨0, _⟩ => rfl | ⟨1, _⟩ => rfl)
    have e2 : Read.idx_main_v29 (Read.ridx_main_v30 (ix2 r f) k) = ix2 f k :=
      funext fun a => Fin.ext (by match a with | ⟨0, _⟩ => rfl | ⟨1, _⟩ => rfl)
    rw [e1, e2, hidden_apply]
  · exact congrArg x5 (funext fun a => Fin.ext (by match a with | ⟨0, _⟩ => rfl))

/-- The second head, as the reference computes it, is the specification's pre-activation with the second head's weights. -/
theorem intercept_preact_apply (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x6 : (⟨S64x1024, .f32⟩ : BufTy).Contents (Elt Ideal)) (x7 : (⟨S64, .f32⟩ : BufTy).Contents (Elt Ideal))
    (r : Fin 65536) (f : Fin 64) :
    Read.val_main_v39 (F := Ideal) x0 x1 x2 x3 x6 x7 (ix2 r f)
      = preactAt x0 x1 (Read.val_main_v21 (F := Ideal) x2) x3 x6 x7 r f := by
  rw [Read.val_main_v39_apply, Read.val_main_v36_apply, Read.val_main_v38_apply, Read.val_main_v37_apply]
  unfold preactAt headAt
  show (∑ k : Fin 1024, _) + _ = _
  refine congrArg₂ (· + ·) (Finset.sum_congr rfl fun k _ => ?_) ?_
  · rw [Read.val_main_v35_apply]
    have e1 : Read.lidx_main_v36 (ix2 r f) k = ix2 r k :=
      funext fun a => Fin.ext (by match a with | ⟨0, _⟩ => rfl | ⟨1, _⟩ => rfl)
    have e2 : Read.idx_main_v35 (Read.ridx_main_v36 (ix2 r f) k) = ix2 f k :=
      funext fun a => Fin.ext (by match a with | ⟨0, _⟩ => rfl | ⟨1, _⟩ => rfl)
    rw [e1, e2, hidden_apply]
  · exact congrArg x7 (funext fun a => Fin.ext (by match a with | ⟨0, _⟩ => rfl))

/-- The reference's first result is the specification's squashed head over the layer matrix as its stages build it. -/
theorem slope_stage_eq (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x4 : (⟨S64x1024, .f32⟩ : BufTy).Contents (Elt Ideal)) (x5 : (⟨S64, .f32⟩ : BufTy).Contents (Elt Ideal)) :
    Read.val_main_v34 (F := Ideal) x0 x1 x2 x3 x4 x5 = slope x0 x1 (Read.val_main_v21 (F := Ideal) x2) x3 x4 x5 := by
  funext i
  obtain ⟨r, f, rfl⟩ : ∃ (r : Fin 65536) (f : Fin 64), i = ix2 r f := ⟨i 0, i 1, eq_ix2 i⟩
  rw [Read.val_main_v34_apply, slope_preact_apply]
  rfl

/-- The reference's second result is the specification's plain head over the layer matrix as its stages build it. -/
theorem intercept_stage_eq (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x6 : (⟨S64x1024, .f32⟩ : BufTy).Contents (Elt Ideal)) (x7 : (⟨S64, .f32⟩ : BufTy).Contents (Elt Ideal)) :
    Read.val_main_v39 (F := Ideal) x0 x1 x2 x3 x6 x7 = intercept x0 x1 (Read.val_main_v21 (F := Ideal) x2) x3 x6 x7 := by
  funext i
  obtain ⟨r, f, rfl⟩ : ∃ (r : Fin 65536) (f : Fin 64), i = ix2 r f := ⟨i 0, i 1, eq_ix2 i⟩
  rw [intercept_preact_apply]
  rfl

/-! ## The layer matrix as one function of the first weight argument -/

/-- The layer matrix as the reference builds it from the first weight argument `w`: a gather from the vector made of `w`'s
    first column reversed followed by its first row without the first entry, at positions computed from the row and column
    numbers alone. It enters every statement as this one function of `w` and is never opened. -/
def layerMatrix (w : S1024x1024.Idx → EReal) : S1024x1024.Idx → EReal :=
  Host.gather gather_S2047_S1024x1024x1_S1024x1024_n_0_n_n_0_2_1 (concatenate S2047 0 [⟨S1024, (shapeCast _ (Host.reverse [0] (extractStridedSlice S1024x1 ![0, 0] (w) slices_S1024x1024_S1024x1_0_0)) shapeCasts_S1024x1_S1024)⟩, ⟨S1023, (shapeCast _ (extractStridedSlice S1x1023 ![0, 1] (w) slices_S1024x1024_S1x1023_0_1) shapeCasts_S1x1023_S1023)⟩] concatenates_S1024_S1023_S2047_d0) (broadcastInDim S1024x1024x1 ![0, 1] bcast_S1024x1024_S1024x1024x1_0_1 (select (cmpi .slt (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 0#32))) (addi (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0)))) (broadcastInDim S1024x1024 ![] bcast_S_S1024x1024 (constantI S_ 32 2047#32))) (addi (broadcastInDim S1024x1024 ![0, 1] bcast_S1024x1_S1024x1024_0_1 (subi (broadcastInDim S1024x1 ![] bcast_S_S1024x1 (constantI S_ 32 1023#32)) (broadcastInDim S1024x1 ![0] bcast_S1024_S1024x1_0 (iotaInDim S1024 32 0)))) (broadcastInDim S1024x1024 ![0, 1] bcast_S1x1024_S1024x1024_0_1 (broadcastInDim S1x1024 ![1] bcast_S1024_S1x1024_1 (iotaInDim S1024 32 0))))))

/-- The stages that build the layer matrix compose to that one function. -/
theorem layerMatrix_eq (w : S1024x1024.Idx → EReal) : Read.val_main_v21 (F := Ideal) w = layerMatrix w := rfl

/-- The reference's first result is the specification's squashed head over the layer matrix of the first weight argument. -/
theorem slope_eq (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x4 : (⟨S64x1024, .f32⟩ : BufTy).Contents (Elt Ideal)) (x5 : (⟨S64, .f32⟩ : BufTy).Contents (Elt Ideal)) :
    Read.val_main_v34 (F := Ideal) x0 x1 x2 x3 x4 x5 = slope x0 x1 (layerMatrix x2) x3 x4 x5 := by
  rw [slope_stage_eq, layerMatrix_eq]

/-- The reference's second result is the specification's plain head over the layer matrix of the first weight argument. -/
theorem intercept_eq (x0 : (⟨S65536x64, .f32⟩ : BufTy).Contents (Elt Ideal)) (x1 : (⟨S65536x960, .f32⟩ : BufTy).Contents (Elt Ideal))
    (x2 : (⟨S1024x1024, .f32⟩ : BufTy).Contents (Elt Ideal)) (x3 : (⟨S1024, .f32⟩ : BufTy).Contents (Elt Ideal))
    (x6 : (⟨S64x1024, .f32⟩ : BufTy).Contents (Elt Ideal)) (x7 : (⟨S64, .f32⟩ : BufTy).Contents (Elt Ideal)) :
    Read.val_main_v39 (F := Ideal) x0 x1 x2 x3 x6 x7 = intercept x0 x1 (layerMatrix x2) x3 x6 x7 := by
  rw [intercept_stage_eq, layerMatrix_eq]

end Cert.ReferenceIdeal.RefValue

end
-- ==== Proof.lean ====
/-
  A perceptron with one rectified hidden layer and two heads, computed block by block in one call, against the same
  perceptron written as three whole matrix products.

  Both programs first build, by the same host operations, a 1024 × 1024 layer matrix from the first weight argument. The
  reference then joins the frame and the state along the columns, multiplies by the matrix transposed, adds the bias,
  rectifies, and applies each head — a product with the head's weights transposed plus its bias —, squashing the first
  head's result with `tanh`. The other program hands the call the matrix already transposed, the bias as a row, the two
  heads' weights side by side and their biases end to end; each of the call's 64 points does the same arithmetic on its
  own 1024 samples with ONE product against the 128 side-by-side columns, and splits the result in two.

  On the extended reals the two are the same function of the arguments, index by index: a change of float format is the
  identity, a matrix product into a zero accumulator is the plain sum over the contracted axis, every sum runs over the same
  1024 indices on both sides, and a column of the side-by-side weights is a row of one head's weights. No law that needs
  finite values is used, so the precondition is never opened. The specification is Proof/Spec.lean; the reference computes
  it (Proof/RefValue.lean); each point of the call writes back its block of it (Proof/Preact.lean for the arithmetic,
  Proof/Operands.lean for the arrays the host prepares, Proof/KernelValue.lean for the blocks and the whole arrays); what
  is left here is that the two programs' layer matrices are one function, and the five claims.
-/
import proofs.«107216_j48576080117816_2_alg».proof.Defs
import proofs.«107216_j48576080117816_2_alg».proof.Proof.Gen.Kernel
import proofs.«107216_j48576080117816_2_alg».proof.Proof.Gen.Kernel.Skeleton
import proofs.«107216_j48576080117816_2_alg».proof.Proof.Gen.Kernel.Launch
import proofs.«107216_j48576080117816_2_alg».proof.Proof.Gen.Kernel.Points
import proofs.«107216_j48576080117816_2_alg».proof.Proof.Gen.Kernel.Frame
import proofs.«107216_j48576080117816_2_alg».proof.Proof.Gen.KernelIdeal
import proofs.«107216_j48576080117816_2_alg».proof.Proof.Gen.KernelIdeal.Skeleton
import proofs.«107216_j48576080117816_2_alg».proof.Proof.Gen.KernelIdeal.Launch
import proofs.«107216_j48576080117816_2_alg».proof.Proof.Gen.KernelIdeal.Points
import proofs.«107216_j48576080117816_2_alg».proof.Proof.Gen.KernelIdeal.Frame
import proofs.«107216_j48576080117816_2_alg».proof.Proof.Gen.ReferenceIdeal
import proofs.«107216_j48576080117816_2_alg».proof.Proof.Gen.Pre_finite_inputs
import proofs.«107216_j48576080117816_2_alg».proof.Proof.Gen.KernelIdeal.Value
import proofs.«107216_j48576080117816_2_alg».proof.Proof.Gen.ReferenceIdeal.Run
import proofs.«107216_j48576080117816_2_alg».proof.Proof.Gen.ReferenceIdeal.Read
import proofs.«107216_j48576080117816_2_alg».proof.Proof.KernelValue
import proofs.«107216_j48576080117816_2_alg».proof.Proof.RefValue
import Idealize.ShloMosaic.Adequacy
import Idealize.ShloMosaic.Init

noncomputable section

namespace Cert.Proof

open Idealize.ShloMosaic Idealize.ShloMosaic.TcCoe Idealize.SL.Sem

/-- The two programs build the layer matrix from the first weight argument by the same operations in the same data flow:
    the two terms are one function. -/
theorem layerMatrix_eq (w : (⟨2, ![1024, 1024]⟩ : Shape).Idx → EReal) :
    Cert.KernelIdeal.Operands.layerMatrix w = Cert.ReferenceIdeal.RefValue.layerMatrix w := by
  unfold Cert.KernelIdeal.Operands.layerMatrix Cert.ReferenceIdeal.RefValue.layerMatrix
  rfl

/-- The word-level program runs and leaves its arguments as they were. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference's run, with its two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals: there is nothing to restate. -/
theorem preserves : Cert.preserves_Kernel_KernelIdeal := trivial

/-- From memories that agree on the arguments, the call's two result arrays and the reference's two results are the
    squashed head and the plain head of those arguments. -/
theorem algebraic : Cert.algebraic_KernelIdeal_ReferenceIdeal := by
  intro m ρ m' ρ' _ hagree
  refine ⟨fun c => Cert.KernelIdeal.KernelValue.slopeOf m c, fun c => Cert.KernelIdeal.KernelValue.interceptOf m c,
    Cert.KernelIdeal.KernelValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, -, -⟩ := hagree c
    rw [(h c).1, Cert.ReferenceIdeal.Read.val_main_v34_eq, Cert.ReferenceIdeal.RefValue.slope_eq, a0, a1, a2, a3, a4, a5,
      ← layerMatrix_eq]
  · obtain ⟨a0, a1, a2, a3, -, -, a6, a7⟩ := hagree c
    rw [(h c).2.1, Cert.ReferenceIdeal.Read.val_main_v39_eq, Cert.ReferenceIdeal.RefValue.intercept_eq, a0, a1, a2, a3, a6, a7,
      ← layerMatrix_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
